-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel

variable [Facts]

def fn {F : FTy → Type} [FloatOps F] (main_arg0 : FVec F S64x512x512 .f32) (main_arg1 : IVec S64x512x512 32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  main_v3
-- ==== Kernel.lean ====
abbrev S64x512x512 : Shape := ⟨3, ![64, 512, 512]⟩
abbrev S1x1 : Shape := ⟨2, ![1, 1]⟩
abbrev S4x512x512 : Shape := ⟨3, ![4, 512, 512]⟩
abbrev S1x4x512x512 : Shape := ⟨4, ![1, 4, 512, 512]⟩
abbrev S1 : Shape := ⟨1, ![1]⟩
abbrev S1x1x1x1 : Shape := ⟨4, ![1, 1, 1, 1]⟩
abbrev S_ : Shape := ⟨0, ![]⟩

abbrev nBuf : Space → Nat
  | .hbm => 6
  | .vmem => 5
  | .smem => 0
  | _ => 0

abbrev bufTy : (tb : Table) → Fin (tcTables nBuf tb) → BufTy
  | .hbm, ⟨0, _⟩ => ⟨S64x512x512, .f32⟩
  | .hbm, ⟨1, _⟩ => ⟨S64x512x512, .i32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S4x512x512, .f32⟩
  | .local _ .vmem, ⟨1, _⟩ => ⟨S4x512x512, .f32⟩
  | .local _ .vmem, ⟨2, _⟩ => ⟨S4x512x512, .i32⟩
  | .local _ .vmem, ⟨3, _⟩ => ⟨S4x512x512, .i32⟩
  | .local _ .vmem, ⟨4, _⟩ => ⟨S1x1, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S4x512x512_S4x512x512_0_0_0 : ∀ a, (![0, 0, 0] : Fin 3 → Nat) a + S4x512x512.size a ≤ S4x512x512.size a
  h_S4x512x512 : 0 < S4x512x512.numel
  natLt_1_32 : 1 < 32
  iota_S4x512x512_d2_w32 : S4x512x512.Iotas .tc 32 [2]
  rotates_S4x512x512_d2 : S4x512x512.Rotates 2 none
  iota_S4x512x512_d1_w32 : S4x512x512.Iotas .tc 32 [1]
  rotates_S4x512x512_d1 : S4x512x512.Rotates 1 none
  shapeCasts_S4x512x512_S1x4x512x512 : S4x512x512.ShapeCasts S1x4x512x512
  reduces_S1x4x512x512_S1 : S1x4x512x512.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x512.size a ≤ S64x512x512.size a
  hwx0_0 : ∀ i : grid0.Coords, EltTy.bits .f32 = 32 ∨ (Rect.block (s := S64x512x512) S4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x512.size a ≤ S64x512x512.size a
  hwx0_1 : ∀ i : grid0.Coords, EltTy.bits .i32 = 32 ∨ (Rect.block (s := S64x512x512) S4x512x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x512x512 : Shape := ⟨3, ![64, 512, 512]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S64x512x512, .f32⟩
  | .hbm, ⟨1, _⟩ => ⟨S64x512x512, .i32⟩
  | .hbm, ⟨2, _⟩ => ⟨S64x512x512, .f32⟩
  | .hbm, ⟨3, _⟩ => ⟨S_, .f32⟩
  | .hbm, ⟨4, _⟩ => ⟨S64x512x512, .f32⟩
  | .hbm, ⟨5, _⟩ => ⟨S64x512x512, .f32⟩
  | .hbm, ⟨6, _⟩ => ⟨S64x512x512, .f32⟩
  | .hbm, ⟨7, _⟩ => ⟨S64x512x512, .f32⟩
  | .hbm, ⟨8, _⟩ => ⟨S64x512x512, .f32⟩
  | .hbm, ⟨9, _⟩ => ⟨S64x512x512, .f32⟩
  | .hbm, ⟨10, _⟩ => ⟨S64x512x512, .f32⟩
  | .hbm, ⟨11, _⟩ => ⟨S64x512x512, .f32⟩
  | .hbm, ⟨12, _⟩ => ⟨S64x512x512, .f32⟩
  | .hbm, ⟨13, _⟩ => ⟨S_, .i32⟩
  | .hbm, ⟨14, _⟩ => ⟨S64x512x512, .i32⟩
  | .hbm, ⟨15, _⟩ => ⟨S64x512x512, .i1⟩
  | .hbm, ⟨16, _⟩ => ⟨S64x512x512, .f32⟩
  | .hbm, ⟨17, _⟩ => ⟨S_, .f32⟩
  | .hbm, ⟨18, _⟩ => ⟨S_, .f32⟩
  | .hbm, ⟨19, _⟩ => ⟨S64x512x512, .f32⟩
  | .hbm, ⟨20, _⟩ => ⟨S_, .f32⟩
  | .hbm, ⟨21, _⟩ => ⟨S_, .f32⟩
  | .hbm, ⟨22, _⟩ => ⟨S64x512x512, .f32⟩
  | .hbm, ⟨23, _⟩ => ⟨S64x512x512, .f32⟩
  | .hbm, ⟨24, _⟩ => ⟨S_, .f32⟩
  | .hbm, ⟨25, _⟩ => ⟨S64x512x512, .f32⟩
  | .hbm, ⟨26, _⟩ => ⟨S64x512x512, .f32⟩
  | .hbm, ⟨27, _⟩ => ⟨S_, .f32⟩
  | .hbm, ⟨28, _⟩ => ⟨S64x512x512, .f32⟩
  | .hbm, ⟨29, _⟩ => ⟨S64x512x512, .f32⟩
  | .hbm, ⟨30, _⟩ => ⟨S64x512x512, .f32⟩
  | .hbm, ⟨31, _⟩ => ⟨S64x512x512, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S_S64x512x512 : S_.BroadcastsInDim S64x512x512 (![] : Fin 0 → Fin S64x512x512.rank)
  bcast_S_S_ : S_.BroadcastsInDim S_ (![] : Fin 0 → Fin S_.rank)
  reduceWindows_S64x512x512_S64x512x512_w1s1p0_0_w3s1p1_1_w3s1p1_1 : S64x512x512.ReduceWindows (![1, 3, 3] : Fin 3 → Nat) ![1, 1, 1] ![0, 1, 1] ![0, 1, 1] S64x512x512
  h_S_ : 0 < S_.numel
  reducesTo_S64x512x512_S_d0_1_2 : S64x512x512.ReducesTo [0, 1, 2] S_

variable [Facts₀]

class Facts : Prop extends Facts₀ where

variable [Facts]
-- ==== Proof.Window.lean ====
/-
  A 3×3 window over a stack of 512×512 images, with a one-pixel border.

  For a stack `x` of `N` images and a border value `P`, `padRead x P n i j` is image `n` at row `i - 1`, column
  `j - 1`, and `P` where that falls outside the image: the image framed by one pixel of `P`, addressed from its
  top-left corner.  The window at pixel `(h, w)` is then the nine framed pixels at rows `h, h+1, h+2` and columns
  `w, w+1, w+2`; `win3 op x P n h w` combines them row by row, each row left to right.

  The host's `reduce_window` over windows `1×3×3`, stride one, padded by one pixel on the two image axes, folds the
  same nine framed pixels from the initial value in the same order.  When `op` is associative and the initial value is
  its left identity, the fold is `win3` (`reduceWindow_apply`).
-/
import Idealize.ShloMosaic.PureOps.Ideal
import Idealize.ShloMosaic.Lib.ValueIdx

namespace Cert.Border

open Idealize.ShloMosaic Idealize.ShloMosaic.ValueIdx

/-- A stack of `N` images of 512 rows and 512 columns. -/
abbrev Stack (N : ℕ) : Shape := ⟨3, ![N, 512, 512]⟩

/-- The window's own shape: one image, three rows, three columns. -/
abbrev Win : Shape := ⟨3, ![1, 3, 3]⟩

section
variable {α : Type} {N : ℕ}

/-- Image `n` framed by one pixel of `P`, read at framed row `i` and framed column `j` (image row `i - 1`, image
    column `j - 1`). -/
def padRead (x : (Stack N).Idx → α) (P : α) (n : Fin N) (i j : ℕ) : α :=
  if hc : (1 ≤ i ∧ i - 1 < 512) ∧ (1 ≤ j ∧ j - 1 < 512) then x (ix3 n ⟨i - 1, hc.1.2⟩ ⟨j - 1, hc.2.2⟩) else P

/-- Three neighbouring framed pixels of one row, combined left to right. -/
def row3 (op : α → α → α) (x : (Stack N).Idx → α) (P : α) (n : Fin N) (i j : ℕ) : α :=
  op (op (padRead x P n i j) (padRead x P n i (j + 1))) (padRead x P n i (j + 2))

/-- The 3×3 window at pixel `(h, w)` of image `n`: its three rows, combined top to bottom. -/
def win3 (op : α → α → α) (x : (Stack N).Idx → α) (P : α) (n : Fin N) (h w : Fin 512) : α :=
  op (op (row3 op x P n h.val w.val) (row3 op x P n (h.val + 1) w.val)) (row3 op x P n (h.val + 2) w.val)

/-- Nine values folded from a left identity `P`, one after the other, are the three rows of three combined. -/
theorem fold9_eq (op : α → α → α) (P : α) (hassoc : ∀ a b c, op (op a b) c = op a (op b c)) (hid : ∀ a, op P a = a)
    (e00 e01 e02 e10 e11 e12 e20 e21 e22 : α) :
    op (op (op (op (op (op (op (op (op P e00) e01) e02) e10) e11) e12) e20) e21) e22
      = op (op (op (op e00 e01) e02) (op (op e10 e11) e12)) (op (op e20 e21) e22) := by
  simp only [hassoc, hid]

/-- The operand of a padded window read at the position `pf` (one natural number per axis, in framed coordinates: low
    padding `0, 1, 1`), or `P` in the padding. -/
def readAt (x : (Stack N).Idx → α) (P : α) (pf : Fin 3 → ℕ) : α :=
  if hin : ∀ a : Fin 3, (![0, 1, 1] : Fin 3 → ℕ) a ≤ pf a ∧ pf a - (![0, 1, 1] : Fin 3 → ℕ) a < (Stack N).size a
    then x (fun a => ⟨pf a - (![0, 1, 1] : Fin 3 → ℕ) a, (hin a).2⟩) else P

/-- At the position `(n, i, j)` that is the framed image `n` at `(i, j)`. -/
theorem readAt_eq (x : (Stack N).Idx → α) (P : α) (n : Fin N) (i j : ℕ) :
    readAt x P ![n.val, i, j] = padRead x P n i j := by
  unfold readAt padRead
  by_cases hc : (1 ≤ i ∧ i - 1 < 512) ∧ (1 ≤ j ∧ j - 1 < 512)
  · have hin : ∀ a : Fin 3, (![0, 1, 1] : Fin 3 → ℕ) a ≤ (![n.val, i, j] : Fin 3 → ℕ) a
        ∧ (![n.val, i, j] : Fin 3 → ℕ) a - (![0, 1, 1] : Fin 3 → ℕ) a < (Stack N).size a := fun a =>
      match a with
      | ⟨0, _⟩ => ⟨Nat.zero_le _, n.isLt⟩
      | ⟨1, _⟩ => hc.1
      | ⟨2, _⟩ => hc.2
    rw [dif_pos hin, dif_pos hc]
    refine congrArg x (funext fun a => ?_)
    match a with
    | ⟨0, _⟩ => rfl
    | ⟨1, _⟩ => rfl
    | ⟨2, _⟩ => rfl
  · have hin : ¬ ∀ a : Fin 3, (![0, 1, 1] : Fin 3 → ℕ) a ≤ (![n.val, i, j] : Fin 3 → ℕ) a
        ∧ (![n.val, i, j] : Fin 3 → ℕ) a - (![0, 1, 1] : Fin 3 → ℕ) a < (Stack N).size a :=
      fun hall => hc ⟨hall 1, hall 2⟩
    rw [dif_neg hin, dif_neg hc]

/-- The window's nine offsets, in the order the fold visits them. -/
theorem offsets : (List.finRange Win.numel).map (fun k => Win.rowMajor.symm k)
    = [ix3 0 0 0, ix3 0 0 1, ix3 0 0 2, ix3 0 1 0, ix3 0 1 1, ix3 0 1 2, ix3 0 2 0, ix3 0 2 1, ix3 0 2 2] := by
  decide +kernel

/-- The position the fold reads for the window at `(n, h, w)` and the offset `(0, a, b)`. -/
theorem pos_eq (n : Fin N) (h w : Fin 512) (a b : Fin 3) :
    (fun c : Fin 3 => ((ix3 n h w : (Stack N).Idx) c).val * (![1, 1, 1] : Fin 3 → ℕ) c + ((ix3 (0 : Fin 1) a b : Win.Idx) c).val)
      = ![n.val, h.val + a.val, w.val + b.val] := by
  funext c
  match c with
  | ⟨0, _⟩ => show n.val * 1 + 0 = n.val; omega
  | ⟨1, _⟩ => show h.val * 1 + a.val = h.val + a.val; omega
  | ⟨2, _⟩ => show w.val * 1 + b.val = w.val + b.val; omega

/-- THE HOST'S WINDOW REDUCTION AT A PIXEL: for an associative `op` whose left identity is the initial value, the fold
    over the padded 3×3 window is the window's three rows of three. -/
theorem reduceWindow_apply {u : Shape} (op : α → α → α) (hassoc : ∀ a b c, op (op a b) c = op a (op b c))
    (x : (Stack N).Idx → α) (init : u.Idx → α)
    (hrw : (Stack N).ReduceWindows (![1, 3, 3] : Fin 3 → ℕ) ![1, 1, 1] ![0, 1, 1] ![0, 1, 1] (Stack N)) (hu : 0 < u.numel)
    (hid : ∀ a, op (init (Shape.Idx.first hu)) a = a) (n : Fin N) (h w : Fin 512) :
    Host.reduceWindow op ![1, 3, 3] ![1, 1, 1] ![0, 1, 1] ![0, 1, 1] x init hrw hu (ix3 n h w)
      = win3 op x (init (Shape.Idx.first hu)) n h w := by
  have key : Host.reduceWindow op ![1, 3, 3] ![1, 1, 1] ![0, 1, 1] ![0, 1, 1] x init hrw hu (ix3 n h w)
      = ((List.finRange Win.numel).map (fun k => Win.rowMajor.symm k)).foldl
          (fun r d => op r (readAt x (init (Shape.Idx.first hu))
            (fun c : Fin 3 => ((ix3 n h w : (Stack N).Idx) c).val * (![1, 1, 1] : Fin 3 → ℕ) c + (d c).val)))
          (init (Shape.Idx.first hu)) := by
    rw [List.foldl_map]
    rfl
  rw [key, offsets]
  simp only [List.foldl, pos_eq, readAt_eq]
  unfold win3 row3
  simp only [Fin.val_zero, Fin.val_one, Fin.val_two, Nat.add_zero, Nat.add_assoc, Nat.reduceAdd]
  exact fold9_eq op _ hassoc hid _ _ _ _ _ _ _ _ _

end

end Cert.Border
-- ==== Proof.Pixel.lean ====
/-
  The border-weighted loss of one pixel.

  For logits `x` and integer labels `y` over a stack of images:
    • the mask is `1` where the label is positive and `0` elsewhere (`maskOf`);
    • the erosion of the mask at a pixel is the minimum of the mask over the pixel's 3×3 window, the window framed
      by `+∞` (`eroAt`), the dilation the maximum, framed by `-∞` (`dilAt`);
    • the pixel's loss is `max x 0 - x·y + log (1 + exp (0 - |x|))` (`lossAt`; `|x|` is `max x (-x)`);
    • its weight is `b·2 + (1 - b)` with `b = dilation - erosion` (`weightAt`);
    • the term summed is loss times weight (`termAt`, `term`).
  Everything is on the extended reals, the float literals kept as the words the programs print.  The minimum is
  associative with left identity `+∞`, the maximum with `-∞`: that is all the window needs (Window.lean).
-/
import proofs.«170355_j23124103922238_1_alg».proof.Proof.Window
import Idealize.ShloMosaic.PureOps.Ideal.Laws

noncomputable section

namespace Cert.Border

open Idealize.ShloMosaic Idealize.ShloMosaic.ValueIdx

/-- The word `0x7F800000` is `+∞`. -/
theorem inf_eq_top : Ideal.ofBits .f32 0x7F800000#32 = ⊤ := by simp [Ideal.ofBits, Ideal.ieee]

/-- The word `0xFF800000` is `-∞`. -/
theorem ninf_eq_bot : Ideal.ofBits .f32 0xFF800000#32 = ⊥ := by simp [Ideal.ofBits, Ideal.ieee]

theorem min_assoc_ereal (a b c : EReal) : min (min a b) c = min a (min b c) := min_assoc a b c
theorem max_assoc_ereal (a b c : EReal) : max (max a b) c = max a (max b c) := max_assoc a b c

/-- `+∞` is the minimum's left identity. -/
theorem min_inf (a : EReal) : min (Ideal.ofBits .f32 0x7F800000#32) a = a := by
  rw [inf_eq_top]; exact min_top_left a

/-- `-∞` is the maximum's left identity. -/
theorem max_ninf (a : EReal) : max (Ideal.ofBits .f32 0xFF800000#32) a = a := by
  rw [ninf_eq_bot]; exact max_bot_left a

section
variable {N : ℕ}

/-- The mask: `1` where the label is positive, `0` elsewhere. -/
def maskOf (y : (Stack N).Idx → BitVec 32) : (Stack N).Idx → EReal :=
  fun i => FloatOps.uitofp (F := Ideal) .f32 (IntOp.cmpi .sgt (y i) 0#32)

/-- The erosion of the mask at pixel `(h, w)` of image `n`. -/
def eroAt (y : (Stack N).Idx → BitVec 32) (n : Fin N) (h w : Fin 512) : EReal :=
  win3 min (maskOf y) (Ideal.ofBits .f32 0x7F800000#32) n h w

/-- The dilation of the mask at pixel `(h, w)` of image `n`. -/
def dilAt (y : (Stack N).Idx → BitVec 32) (n : Fin N) (h w : Fin 512) : EReal :=
  win3 max (maskOf y) (Ideal.ofBits .f32 0xFF800000#32) n h w

/-- One pixel's loss from its logit and label. -/
def lossAt (a : EReal) (y : BitVec 32) : EReal :=
  (max a (Ideal.ofBits .f32 0x00000000#32) - a * FloatOps.sitofp (F := Ideal) .f32 y)
    + Ideal.log1p (Ideal.exp (Ideal.ofBits .f32 0x00000000#32 - max a (-a)))

/-- One pixel's weight from the erosion `e` and the dilation `d` there. -/
def weightAt (e d : EReal) : EReal :=
  (d - e) * Ideal.ofBits .f32 0x40000000#32 + (Ideal.ofBits .f32 0x3F800000#32 - (d - e))

/-- The weighted loss of pixel `(h, w)` of image `n`. -/
def termAt (x : (Stack N).Idx → EReal) (y : (Stack N).Idx → BitVec 32) (n : Fin N) (h w : Fin 512) : EReal :=
  lossAt (x (ix3 n h w)) (y (ix3 n h w)) * weightAt (eroAt y n h w) (dilAt y n h w)

/-- The same, at an index of the stack. -/
def term (x : (Stack N).Idx → EReal) (y : (Stack N).Idx → BitVec 32) (i : (Stack N).Idx) : EReal :=
  termAt x y (i 0) (i 1) (i 2)

theorem term_ix3 (x : (Stack N).Idx → EReal) (y : (Stack N).Idx → BitVec 32) (n : Fin N) (h w : Fin 512) :
    term x y (ix3 n h w) = termAt x y n h w := rfl

end

end Cert.Border

end
-- ==== Proof.RefValue.lean ====
/-
  The reference computes the weighted loss of Pixel.lean at every pixel, sums, and divides.

  Read one pixel at a time, the reference's product `loss · weight` is `termAt`: its mask is `maskOf`, its two
  `reduce_window`s are the framed 3×3 minimum and maximum (Window.lean, the initial values `+∞` and `-∞` being the
  identities), its negation of `|x|` is `0 - |x|`, and the remaining operations are the same ones pixel by pixel.
  Its result is the initial zero plus the sum of the term over every pixel of the 64 images, divided by `2^24`.
-/
import proofs.«170355_j23124103922238_1_alg».proof.Proof.Gen.ReferenceIdeal.Read
import proofs.«170355_j23124103922238_1_alg».proof.Proof.Pixel
import Idealize.ShloMosaic.Lib.KernelVsHost

noncomputable section

namespace Cert.Border.Ref

open Cert.ReferenceIdeal Cert.ReferenceIdeal.Gen Cert.ReferenceIdeal.Read
open Idealize.ShloMosaic Idealize.ShloMosaic.ValueIdx Cert.Border

/-- The reference's converted comparison is the mask. -/
theorem mask_eq (y : (Stack 64).Idx → BitVec 32) : val_main_v12 (F := Ideal) y = maskOf y := by
  funext i
  rw [val_main_v12_apply, val_main_v11_apply, val_main_v10_apply, val_main_c_apply]
  rfl

/-- The erosion's initial value is `+∞`'s word. -/
theorem init_inf : val_main_v13 (F := Ideal) (Shape.Idx.first h_S_) = Ideal.ofBits .f32 0x7F800000#32 := by
  rw [val_main_v13_apply, val_main_cst_0_apply]; rfl

/-- The dilation's initial value is `-∞`'s word. -/
theorem init_ninf : val_main_v15 (F := Ideal) (Shape.Idx.first h_S_) = Ideal.ofBits .f32 0xFF800000#32 := by
  rw [val_main_v15_apply, val_main_cst_1_apply]; rfl

/-- The reference's first window reduction is the erosion. -/
theorem ero_eq (y : (Stack 64).Idx → BitVec 32) (n : Fin 64) (h w : Fin 512) :
    val_main_v14 (F := Ideal) y (ix3 n h w) = eroAt y n h w := by
  unfold val_main_v14 eroAt
  rw [mask_eq]
  refine (reduceWindow_apply (N := 64) (FloatOps.minimumf (F := Ideal) (φ := .f32)) min_assoc_ereal (maskOf y)
    (val_main_v13 (F := Ideal)) reduceWindows_S64x512x512_S64x512x512_w1s1p0_0_w3s1p1_1_w3s1p1_1 h_S_
    (by rw [init_inf]; exact min_inf) n h w).trans ?_
  rw [init_inf]
  rfl

/-- The reference's second window reduction is the dilation. -/
theorem dil_eq (y : (Stack 64).Idx → BitVec 32) (n : Fin 64) (h w : Fin 512) :
    val_main_v16 (F := Ideal) y (ix3 n h w) = dilAt y n h w := by
  unfold val_main_v16 dilAt
  rw [mask_eq]
  refine (reduceWindow_apply (N := 64) (FloatOps.maximumf (F := Ideal) (φ := .f32)) max_assoc_ereal (maskOf y)
    (val_main_v15 (F := Ideal)) reduceWindows_S64x512x512_S64x512x512_w1s1p0_0_w3s1p1_1_w3s1p1_1 h_S_
    (by rw [init_ninf]; exact max_ninf) n h w).trans ?_
  rw [init_ninf]
  rfl

/-- THE REFERENCE'S PRODUCT AT A PIXEL is the weighted loss there. -/
theorem prod_eq (x : (Stack 64).Idx → EReal) (y : (Stack 64).Idx → BitVec 32) (n : Fin 64) (h w : Fin 512) :
    val_main_v23 (F := Ideal) x y (ix3 n h w) = termAt x y n h w := by
  simp only [val_main_v23_apply, val_main_v9_apply, val_main_v4_apply, val_main_v2_apply, val_main_v3_apply, val_main_v0_apply,
    val_main_v1_apply, val_main_cst_apply, val_main_v8_apply, val_main_v7_apply, val_main_v6_apply, val_main_v5_apply,
    val_main_v22_apply, val_main_v19_apply, val_main_v21_apply, val_main_v17_apply, val_main_v18_apply, val_main_cst_2_apply,
    val_main_v20_apply, val_main_cst_3_apply, ero_eq, dil_eq]
  rw [← Ideal.subf_zero_eq_hostNegf]
  rfl

/-- THE REFERENCE'S RESULT: zero plus the sum of the weighted loss over every pixel, divided by `2^24`. -/
theorem result_eq (x : (Stack 64).Idx → EReal) (y : (Stack 64).Idx → BitVec 32) (i : S_.Idx) :
    val_main_v25 (F := Ideal) x y i
      = Ideal.div (Ideal.ofBits .f32 0x00000000#32 + ∑ j : (Stack 64).Idx, term x y j) (Ideal.ofBits .f32 0x4B800000#32) := by
  rw [val_main_v25_apply, val_main_v24_apply, val_main_cst_4_apply, val_main_cst_5_apply]
  have hsum : ∑ j : S64x512x512.Idx, val_main_v23 (F := Ideal) x y j = ∑ j : (Stack 64).Idx, term x y j :=
    Finset.sum_congr rfl fun j _ =>
      (congrArg (val_main_v23 (F := Ideal) x y) (eq_ix3 j)).trans (prod_eq x y (j 0) (j 1) (j 2))
  rw [hsum]
  rfl

end Cert.Border.Ref

end
-- ==== Proof.Edges.lean ====
/-
  The 3×3 window reached by wrap-around neighbours with the edges patched.

  A pixel's left neighbour in a row of 512 is the pixel at column `(w + 512 - 1) % 512`, except at `w = 0`, where the
  wrap-around would fetch the far end of the row and the border value `P` is taken instead; likewise the right
  neighbour is column `(w + 512 - 511) % 512`, except at `w = 511`.  That is the framed image of Window.lean read at
  the three framed columns `w, w+1, w+2` (`row3_edges`).  The same patching along the rows, applied to the row
  results, gives the whole window (`win3_edges`): above the first row and below the last the three framed pixels are
  all `P`, and `P` combined with itself is `P` because `P` is a left identity.
-/
import proofs.«170355_j23124103922238_1_alg».proof.Proof.Window

namespace Cert.Border

open Idealize.ShloMosaic Idealize.ShloMosaic.ValueIdx

section
variable {α : Type} {N : ℕ}

/-- A select on the comparison of two small numbers' words is the `if` on the numbers. -/
theorem select_eq_nat (a c : ℕ) (ha : a < 2 ^ 32) (hc : c < 2 ^ 32) (A B : α) :
    Scalar.select (IntOp.cmpi .eq (BitVec.ofNat 32 a) (BitVec.ofNat 32 c)) A B = if a = c then A else B := by
  show (if BitVec.ofBool (BitVec.ofNat 32 a == BitVec.ofNat 32 c) = 1 then A else B) = _
  by_cases h : a = c
  · subst h; simp
  · have hne : BitVec.ofNat 32 a ≠ BitVec.ofNat 32 c := fun he => h (by
      have := congrArg BitVec.toNat he
      rw [BitVec.toNat_ofNat, BitVec.toNat_ofNat] at this
      have e : (2 : ℕ) ^ 32 = 4294967296 := by norm_num
      omega)
    have hb : (BitVec.ofNat 32 a == BitVec.ofNat 32 c) = false := by simpa using hne
    rw [hb, if_neg h]
    exact if_neg (by decide)

/-- The framed column `w` of image row `h` is the left neighbour, or `P` at the left edge. -/
theorem padRead_left (x : (Stack N).Idx → α) (P : α) (n : Fin N) (h w : Fin 512) :
    padRead x P n (h.val + 1) w.val
      = if w.val = 0 then P else x (ix3 n h ⟨(w.val + 512 - 1) % 512, Nat.mod_lt _ (by decide)⟩) := by
  unfold padRead
  have hh := h.isLt
  have hw := w.isLt
  by_cases h0 : w.val = 0
  · rw [if_pos h0, dif_neg (by omega)]
  · rw [if_neg h0, dif_pos (by omega)]
    refine congrArg x (funext fun a => ?_)
    match a with
    | ⟨0, _⟩ => rfl
    | ⟨1, _⟩ => exact Fin.ext (by show h.val + 1 - 1 = h.val; omega)
    | ⟨2, _⟩ => exact Fin.ext (by show w.val - 1 = (w.val + 512 - 1) % 512; omega)

/-- The framed column `w + 1` of image row `h` is the pixel itself. -/
theorem padRead_mid (x : (Stack N).Idx → α) (P : α) (n : Fin N) (h w : Fin 512) :
    padRead x P n (h.val + 1) (w.val + 1) = x (ix3 n h w) := by
  unfold padRead
  have hh := h.isLt
  have hw := w.isLt
  rw [dif_pos (by omega)]
  refine congrArg x (funext fun a => ?_)
  match a with
  | ⟨0, _⟩ => rfl
  | ⟨1, _⟩ => exact Fin.ext (by show h.val + 1 - 1 = h.val; omega)
  | ⟨2, _⟩ => exact Fin.ext (by show w.val + 1 - 1 = w.val; omega)

/-- The framed column `w + 2` of image row `h` is the right neighbour, or `P` at the right edge. -/
theorem padRead_right (x : (Stack N).Idx → α) (P : α) (n : Fin N) (h w : Fin 512) :
    padRead x P n (h.val + 1) (w.val + 2)
      = if w.val = 511 then P else x (ix3 n h ⟨(w.val + 512 - 511) % 512, Nat.mod_lt _ (by decide)⟩) := by
  unfold padRead
  have hh := h.isLt
  have hw := w.isLt
  by_cases h0 : w.val = 511
  · rw [if_pos h0, dif_neg (by omega)]
  · rw [if_neg h0, dif_pos (by omega)]
    refine congrArg x (funext fun a => ?_)
    match a with
    | ⟨0, _⟩ => rfl
    | ⟨1, _⟩ => exact Fin.ext (by show h.val + 1 - 1 = h.val; omega)
    | ⟨2, _⟩ => exact Fin.ext (by show w.val + 2 - 1 = (w.val + 512 - 511) % 512; omega)

/-- A framed row above the first image row or below the last holds `P` only. -/
theorem padRead_outside (x : (Stack N).Idx → α) (P : α) (n : Fin N) (i j : ℕ) (hi : i = 0 ∨ 513 ≤ i) :
    padRead x P n i j = P := by
  unfold padRead
  rw [dif_neg (by omega)]

/-- ONE ROW OF THE WINDOW, the patched way: left neighbour, pixel, right neighbour of image row `h`. -/
theorem row3_edges (op : α → α → α) (x : (Stack N).Idx → α) (P : α) (n : Fin N) (h w : Fin 512) :
    op (op (if w.val = 0 then P else x (ix3 n h ⟨(w.val + 512 - 1) % 512, Nat.mod_lt _ (by decide)⟩)) (x (ix3 n h w)))
        (if w.val = 511 then P else x (ix3 n h ⟨(w.val + 512 - 511) % 512, Nat.mod_lt _ (by decide)⟩))
      = row3 op x P n (h.val + 1) w.val := by
  unfold row3
  rw [padRead_left, padRead_mid, padRead_right]

/-- THE WINDOW, the patched way: for row results `mw` (each pixel's row of three), the row above (or `P` at the top
    edge), the pixel's own row, the row below (or `P` at the bottom edge). -/
theorem win3_edges (op : α → α → α) (x : (Stack N).Idx → α) (P : α) (hid : ∀ a, op P a = a)
    (mw : (Stack N).Idx → α) (hmw : ∀ (n : Fin N) (h w : Fin 512), mw (ix3 n h w) = row3 op x P n (h.val + 1) w.val)
    (n : Fin N) (h w : Fin 512) :
    op (op (if h.val = 0 then P else mw (ix3 n ⟨(h.val + 512 - 1) % 512, Nat.mod_lt _ (by decide)⟩ w)) (mw (ix3 n h w)))
        (if h.val = 511 then P else mw (ix3 n ⟨(h.val + 512 - 511) % 512, Nat.mod_lt _ (by decide)⟩ w))
      = win3 op x P n h w := by
  unfold win3
  have hh := h.isLt
  have hPPP : ∀ i, (i = 0 ∨ 513 ≤ i) → row3 op x P n i w.val = P := fun i hi => by
    unfold row3
    rw [padRead_outside x P n i _ hi, padRead_outside x P n i _ hi, padRead_outside x P n i _ hi, hid, hid]
  have top : (if h.val = 0 then P else mw (ix3 n ⟨(h.val + 512 - 1) % 512, Nat.mod_lt _ (by decide)⟩ w))
      = row3 op x P n h.val w.val := by
    by_cases h0 : h.val = 0
    · rw [if_pos h0, h0, hPPP 0 (Or.inl rfl)]
    · rw [if_neg h0, hmw]
      congr 1
      show (h.val + 512 - 1) % 512 + 1 = h.val
      omega
  have bot : (if h.val = 511 then P else mw (ix3 n ⟨(h.val + 512 - 511) % 512, Nat.mod_lt _ (by decide)⟩ w))
      = row3 op x P n (h.val + 2) w.val := by
    by_cases h0 : h.val = 511
    · rw [if_pos h0, h0, hPPP (511 + 2) (Or.inr (by decide))]
    · rw [if_neg h0, hmw]
      congr 1
      show (h.val + 512 - 511) % 512 + 1 = h.val + 2
      omega
  rw [top, bot, hmw]

end

end Cert.Border
-- ==== Proof.Patched.lean ====
/-
  A vector rotated by one place along an axis, with the wrapped-around edge replaced.

  Rotating a stack by `1` along the columns brings to column `w` the element of column `(w + 512 - 1) % 512`;
  rotating by `511` brings that of column `(w + 512 - 511) % 512`.  Selecting the border value `P` where the column
  number is `0` (resp. `511`) patches the one wrapped element.  Combined with the element itself these are the three
  framed pixels of a row (`rowPatched_apply`, by Edges.lean's `row3_edges`); the same along the rows, on the row
  results, is the 3×3 window (`colPatched_apply`, by `win3_edges`).
-/
import proofs.«170355_j23124103922238_1_alg».proof.Proof.Edges
import Idealize.ShloMosaic.Lib.KernelVsHost

namespace Cert.Border

open Idealize.ShloMosaic Idealize.ShloMosaic.ValueIdx

section
variable {α : Type} {N : ℕ}

/-- The rotation by `s` along the columns, read at a pixel. -/
theorem rotate_cols_apply (X : (Stack N).Idx → α) (hr : (Stack N).Rotates 2 none) (s : ℕ) (hs : s < 512) (n : Fin N) (h w : Fin 512) :
    dynamicRotate 2 (BitVec.ofNat 32 s) none X hr (ix3 n h w)
      = X (ix3 n h ⟨(w.val + 512 - s) % 512, Nat.mod_lt _ (by decide)⟩) := by
  refine dynamicRotate_apply 2 _ X hr (ix3 n h w) (ix3 n h ⟨(w.val + 512 - s) % 512, Nat.mod_lt _ (by decide)⟩) fun b => ?_
  have hts : (BitVec.ofNat 32 s).toNat = s := by
    rw [BitVec.toNat_ofNat]; exact Nat.mod_eq_of_lt (by omega)
  match b with
  | ⟨0, _⟩ => rfl
  | ⟨1, _⟩ => rfl
  | ⟨2, _⟩ =>
    show (w.val + 512 - s) % 512 = if (2 : Fin 3) = 2 then (w.val + 512 - (BitVec.ofNat 32 s).toNat % 512) % 512 else w.val
    rw [if_pos rfl, hts, Nat.mod_eq_of_lt hs]

/-- The rotation by `s` along the rows, read at a pixel. -/
theorem rotate_rows_apply (X : (Stack N).Idx → α) (hr : (Stack N).Rotates 1 none) (s : ℕ) (hs : s < 512) (n : Fin N) (h w : Fin 512) :
    dynamicRotate 1 (BitVec.ofNat 32 s) none X hr (ix3 n h w)
      = X (ix3 n ⟨(h.val + 512 - s) % 512, Nat.mod_lt _ (by decide)⟩ w) := by
  refine dynamicRotate_apply 1 _ X hr (ix3 n h w) (ix3 n ⟨(h.val + 512 - s) % 512, Nat.mod_lt _ (by decide)⟩ w) fun b => ?_
  have hts : (BitVec.ofNat 32 s).toNat = s := by
    rw [BitVec.toNat_ofNat]; exact Nat.mod_eq_of_lt (by omega)
  match b with
  | ⟨0, _⟩ => rfl
  | ⟨1, _⟩ =>
    show (h.val + 512 - s) % 512 = if (1 : Fin 3) = 1 then (h.val + 512 - (BitVec.ofNat 32 s).toNat % 512) % 512 else h.val
    rw [if_pos rfl, hts, Nat.mod_eq_of_lt hs]
  | ⟨2, _⟩ => rfl

/-- ONE ROW OF THE WINDOW as a kernel computes it: the stack rotated right and left by one column, the wrapped column
    replaced by `P`, combined with the stack itself. -/
theorem rowPatched_apply (op : α → α → α) (X : (Stack N).Idx → α) (P : α) (hi : (Stack N).Iotas .tc 32 [2])
    (hr : (Stack N).Rotates 2 none) (n : Fin N) (h w : Fin 512) :
    op (op (Scalar.select (IntOp.cmpi .eq (iota .tc (Stack N) 32 [2] hi (ix3 n h w)) 0#32) P
              (dynamicRotate 2 1#32 none X hr (ix3 n h w))) (X (ix3 n h w)))
        (Scalar.select (IntOp.cmpi .eq (iota .tc (Stack N) 32 [2] hi (ix3 n h w)) 511#32) P
              (dynamicRotate 2 511#32 none X hr (ix3 n h w)))
      = row3 op X P n (h.val + 1) w.val := by
  have hw := w.isLt
  rw [iota_single_apply, rotate_cols_apply X hr 1 (by decide), rotate_cols_apply X hr 511 (by decide)]
  show op (op (Scalar.select (IntOp.cmpi .eq (BitVec.ofNat 32 w.val) (BitVec.ofNat 32 0)) P _) _)
    (Scalar.select (IntOp.cmpi .eq (BitVec.ofNat 32 w.val) (BitVec.ofNat 32 511)) P _) = _
  rw [select_eq_nat _ _ (by omega) (by decide), select_eq_nat _ _ (by omega) (by decide)]
  exact row3_edges op X P n h w

/-- THE WINDOW as a kernel computes it: the row results `mw` rotated down and up by one row, the wrapped row replaced
    by `P`, combined with the row results themselves. -/
theorem colPatched_apply (op : α → α → α) (X : (Stack N).Idx → α) (P : α) (hid : ∀ a, op P a = a)
    (mw : (Stack N).Idx → α) (hmw : ∀ (n : Fin N) (h w : Fin 512), mw (ix3 n h w) = row3 op X P n (h.val + 1) w.val)
    (hi : (Stack N).Iotas .tc 32 [1]) (hr : (Stack N).Rotates 1 none) (n : Fin N) (h w : Fin 512) :
    op (op (Scalar.select (IntOp.cmpi .eq (iota .tc (Stack N) 32 [1] hi (ix3 n h w)) 0#32) P
              (dynamicRotate 1 1#32 none mw hr (ix3 n h w))) (mw (ix3 n h w)))
        (Scalar.select (IntOp.cmpi .eq (iota .tc (Stack N) 32 [1] hi (ix3 n h w)) 511#32) P
              (dynamicRotate 1 511#32 none mw hr (ix3 n h w)))
      = win3 op X P n h w := by
  have hh := h.isLt
  rw [iota_single_apply, rotate_rows_apply mw hr 1 (by decide), rotate_rows_apply mw hr 511 (by decide)]
  show op (op (Scalar.select (IntOp.cmpi .eq (BitVec.ofNat 32 h.val) (BitVec.ofNat 32 0)) P _) _)
    (Scalar.select (IntOp.cmpi .eq (BitVec.ofNat 32 h.val) (BitVec.ofNat 32 511)) P _) = _
  rw [select_eq_nat _ _ (by omega) (by decide), select_eq_nat _ _ (by omega) (by decide)]
  exact win3_edges op X P hid mw hmw n h w

end

end Cert.Border
-- ==== Proof.KernelPixel.lean ====
/-
  The kernel's arithmetic on one block of four images, read at a pixel, is the weighted loss of Pixel.lean.

  The body converts the label comparison to a float through a 32-bit word, which is the mask (`pay4_eq`); takes, along
  the columns, the minimum of the mask with its two rotated and edge-patched copies — a pixel's framed row of three
  (`pay5_apply`, Patched.lean) — and then the same along the rows, which is the erosion; does the same with the maximum
  and `-∞` for the dilation; and multiplies the pixel's loss by the weight of the two.  The product, viewed as one more
  leading axis of extent one, is the vector the body sums.
-/
import proofs.«170355_j23124103922238_1_alg».proof.Proof.Gen.KernelIdeal.Skeleton
import proofs.«170355_j23124103922238_1_alg».proof.Proof.Pixel
import proofs.«170355_j23124103922238_1_alg».proof.Proof.Patched
import Idealize.ShloMosaic.Lib.Pipeline.Value

noncomputable section

namespace Cert.Border.Kernel

open Cert.KernelIdeal Cert.KernelIdeal.Gen
open Idealize.ShloMosaic Idealize.ShloMosaic.ValueIdx Cert.Border

variable (x0 : Vec Ideal S4x512x512 .f32) (x1 : Vec Ideal S4x512x512 .i32)

/-- The comparison widened to a word and converted signed is the mask. -/
theorem pay4_eq : k0_pay4 (F := Ideal) x1 = maskOf x1 := by
  unfold k0_pay4
  exact (sitofp_extui_eq_uitofp _ _).trans rfl

/-- The minimum along the columns at a pixel: the pixel's framed row of three of the mask. -/
theorem pay5_apply (b : Fin 4) (h w : Fin 512) :
    k0_pay5 (F := Ideal) x1 (ix3 b h w) = row3 min (maskOf x1) (Ideal.ofBits .f32 0x7F800000#32) b (h.val + 1) w.val := by
  unfold k0_pay5
  rw [pay4_eq]
  exact rowPatched_apply min (maskOf x1) _ Facts₀.iota_S4x512x512_d2_w32 Facts₀.rotates_S4x512x512_d2 b h w

/-- The maximum along the columns, as the body computes it from the mask `m`. -/
def rowMaxK (m : FVec Ideal S4x512x512 .f32) : FVec Ideal S4x512x512 .f32 :=
  maximumf (maximumf (select (cmpi .eq (iota .tc S4x512x512 32 [2] Facts₀.iota_S4x512x512_d2_w32) (broadcast S4x512x512 0#32))
      (broadcast S4x512x512 (Scalar.ofBits .f32 0xFF800000#32)) (dynamicRotate 2 1#32 none m Facts₀.rotates_S4x512x512_d2)) m)
    (select (cmpi .eq (iota .tc S4x512x512 32 [2] Facts₀.iota_S4x512x512_d2_w32) (broadcast S4x512x512 511#32))
      (broadcast S4x512x512 (Scalar.ofBits .f32 0xFF800000#32)) (dynamicRotate 2 511#32 none m Facts₀.rotates_S4x512x512_d2))

/-- At a pixel it is the pixel's framed row of three, by the maximum. -/
theorem rowMaxK_apply (b : Fin 4) (h w : Fin 512) :
    rowMaxK (maskOf x1) (ix3 b h w) = row3 max (maskOf x1) (Ideal.ofBits .f32 0xFF800000#32) b (h.val + 1) w.val :=
  rowPatched_apply max (maskOf x1) _ Facts₀.iota_S4x512x512_d2_w32 Facts₀.rotates_S4x512x512_d2 b h w

/-- Loss times weight, read at an index. -/
theorem weighted_apply (L E D : FVec Ideal S4x512x512 .f32) (i : S4x512x512.Idx) :
    mulf L (addf (mulf (subf D E) (broadcast S4x512x512 (Scalar.ofBits .f32 0x40000000#32)))
      (subf (broadcast S4x512x512 (Scalar.ofBits .f32 0x3F800000#32)) (subf D E))) i = L i * weightAt (E i) (D i) := rfl

/-- THE BODY'S PRODUCT AT A PIXEL of the block is the weighted loss there. -/
theorem pay9_apply (b : Fin 4) (h w : Fin 512) :
    k0_pay9 (F := Ideal) (k0_pay3 x0 x1) (k0_pay4 x1) (k0_pay5 x1) (iota .tc S4x512x512 32 [1] Facts₀.iota_S4x512x512_d1_w32)
        (k0_pay6 x1) k0_pay7 k0_pay8 (ix4 0 b h w)
      = termAt x0 x1 b h w := by
  unfold k0_pay9
  rw [pay4_eq]
  refine (shapeCast_addUnit_apply ![4, 512, 512] _ _ (ix4 0 b h w)).trans ?_
  have hi : (fun a : Fin 3 => (ix4 (0 : Fin 1) b h w : S1x4x512x512.Idx) a.succ) = ix3 b h w :=
    funext fun a => match a with
      | ⟨0, _⟩ => rfl
      | ⟨1, _⟩ => rfl
      | ⟨2, _⟩ => rfl
  rw [hi]
  refine (weighted_apply _ _ _ _).trans ?_
  unfold termAt
  refine congrArg₂ (· * ·) rfl (congrArg₂ weightAt ?_ ?_)
  · exact colPatched_apply min (maskOf x1) _ min_inf (k0_pay5 x1) (pay5_apply x1) Facts₀.iota_S4x512x512_d1_w32
      Facts₀.rotates_S4x512x512_d1 b h w
  · exact colPatched_apply max (maskOf x1) _ max_ninf (rowMaxK (maskOf x1)) (rowMaxK_apply x1) Facts₀.iota_S4x512x512_d1_w32
      Facts₀.rotates_S4x512x512_d1 b h w

end Cert.Border.Kernel

end
-- ==== Proof.Bridge.lean ====
/-
  Sixteen blocks of four images make the stack of sixty-four.

  The weighted loss of a pixel depends on its own image only: on the logit and label there and on the labels of the
  image's 3×3 window.  So a block of four images cut from the stack has, at image `b` of block `t`, the term the stack
  has at image `4t + b` (`termAt_congr`).  And the sum over the stack's indices is the sum over the blocks of the sum
  over a block's indices (`sum_blocks`) — a block indexed with a leading axis of extent one, as the kernel sums it.
  The extended reals are a commutative monoid under addition, so no finiteness is needed to regroup.
-/
import proofs.«170355_j23124103922238_1_alg».proof.Proof.Pixel

noncomputable section

namespace Cert.Border

open Idealize.ShloMosaic Idealize.ShloMosaic.ValueIdx

section Local
variable {α : Type} {N M : ℕ}

/-- A framed read sees one image only. -/
theorem padRead_congr (x : (Stack N).Idx → α) (x' : (Stack M).Idx → α) (n : Fin N) (n' : Fin M)
    (hx : ∀ h w : Fin 512, x (ix3 n h w) = x' (ix3 n' h w)) (P : α) (i j : ℕ) :
    padRead x P n i j = padRead x' P n' i j := by
  unfold padRead
  by_cases hc : (1 ≤ i ∧ i - 1 < 512) ∧ (1 ≤ j ∧ j - 1 < 512)
  · rw [dif_pos hc, dif_pos hc]; exact hx _ _
  · rw [dif_neg hc, dif_neg hc]

/-- So does a window. -/
theorem win3_congr (op : α → α → α) (x : (Stack N).Idx → α) (x' : (Stack M).Idx → α) (n : Fin N) (n' : Fin M)
    (hx : ∀ h w : Fin 512, x (ix3 n h w) = x' (ix3 n' h w)) (P : α) (h w : Fin 512) :
    win3 op x P n h w = win3 op x' P n' h w := by
  unfold win3 row3
  simp only [padRead_congr x x' n n' hx]

/-- The weighted loss at image `n` of one stack is that at image `n'` of another whose image `n'` holds the same logits
    and labels. -/
theorem termAt_congr (x : (Stack N).Idx → EReal) (y : (Stack N).Idx → BitVec 32) (x' : (Stack M).Idx → EReal)
    (y' : (Stack M).Idx → BitVec 32) (n : Fin N) (n' : Fin M) (hx : ∀ h w : Fin 512, x (ix3 n h w) = x' (ix3 n' h w))
    (hy : ∀ h w : Fin 512, y (ix3 n h w) = y' (ix3 n' h w)) (h w : Fin 512) :
    termAt x y n h w = termAt x' y' n' h w := by
  have hm : ∀ h w : Fin 512, maskOf y (ix3 n h w) = maskOf y' (ix3 n' h w) := fun h w => by
    unfold maskOf; rw [hy]
  unfold termAt eroAt dilAt
  rw [hx, hy, win3_congr min _ _ n n' hm, win3_congr max _ _ n n' hm]

end Local

/-- A block of four images, with the leading axis of extent one the kernel gives it before summing. -/
abbrev Block : Shape := ⟨4, ![1, 4, 512, 512]⟩

/-- Image `b` of block `t` is image `4t + b` of the stack. -/
def blockImage (t : Fin 16) (b : Fin 4) : Fin 64 := ⟨4 * t.val + b.val, by have := t.isLt; have := b.isLt; omega⟩

/-- The stack's index of a block's index. -/
def ofBlock (p : Fin 16 × Block.Idx) : (Stack 64).Idx := ix3 (blockImage p.1 (p.2 1)) (p.2 2) (p.2 3)

/-- Blocks and their indices enumerate the stack's indices. -/
def blockEquiv : Fin 16 × Block.Idx ≃ (Stack 64).Idx where
  toFun := ofBlock
  invFun i := (⟨(i 0).val / 4, by have : (i 0).val < 64 := (i 0).isLt; omega⟩,
    ix4 (0 : Fin 1) (⟨(i 0).val % 4, Nat.mod_lt _ (by decide)⟩ : Fin 4) (i 1) (i 2))
  left_inv p := by
    obtain ⟨t, j⟩ := p
    have h1 : (j 1).val < 4 := (j 1).isLt
    have h0 : (j 0).val < 1 := (j 0).isLt
    refine Prod.ext (Fin.ext ?_) (funext fun a => ?_)
    · show (4 * t.val + (j 1).val) / 4 = t.val
      omega
    · match a with
      | ⟨0, _⟩ => exact Fin.ext (by show 0 = (j 0).val; omega)
      | ⟨1, _⟩ => exact Fin.ext (by show (4 * t.val + (j 1).val) % 4 = (j 1).val; omega)
      | ⟨2, _⟩ => rfl
      | ⟨3, _⟩ => rfl
  right_inv i := by
    funext a
    match a with
    | ⟨0, _⟩ => exact Fin.ext (by show 4 * ((i 0).val / 4) + (i 0).val % 4 = (i 0).val; omega)
    | ⟨1, _⟩ => rfl
    | ⟨2, _⟩ => rfl

/-- THE SUM OVER THE STACK is the sum over the sixteen blocks of the sums over each block. -/
theorem sum_blocks (f : (Stack 64).Idx → EReal) :
    ∑ i : (Stack 64).Idx, f i = ∑ t : Fin 16, ∑ j : Block.Idx, f (ofBlock (t, j)) := by
  rw [← Equiv.sum_comp blockEquiv f, Fintype.sum_prod_type]
  rfl

end Cert.Border

end
-- ==== Proof.KernelCases.lean ====
/-
  What one grid point leaves in the accumulator.

  The body's product vector `prodK` is the block's weighted losses (KernelPixel.lean).  At the first grid point the body
  stores a zero, reads it back and adds the sum of the product to it; at every later point it adds the sum to what the
  point before left (`out_A`, `out_B`).  Summing the product over all its axes into one element is the plain sum over
  its indices (`pay1_apply`).  So after point `n` the accumulator holds zero plus the block sums of points `0 … n`
  (`outsAt_eq`, by induction on the point), and after the last point the sum over all sixteen blocks.
-/
import proofs.«170355_j23124103922238_1_alg».proof.Proof.Gen.KernelIdeal.Frame
import proofs.«170355_j23124103922238_1_alg».proof.Proof.KernelPixel
import proofs.«170355_j23124103922238_1_alg».proof.Proof.Bridge
import Idealize.ShloMosaic.Lib.Pipeline.Value
import Idealize.ShloMosaic.Lib.Tactic

noncomputable section

namespace Cert.Border.Kernel

open Cert.KernelIdeal Cert.KernelIdeal.Gen
open Idealize.ShloMosaic Idealize.ShloMosaic.TcCoe Idealize.SL.Sem Idealize.ShloMosaic.Tactic
open Idealize.ShloMosaic.ValueIdx Cert.Border
open Idealize.ShloMosaic.Pipeline (Dat)

section AnyF
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The body's product vector from the two input blocks: loss times weight, with a leading axis of extent one. -/
def prodK (x0 : Vec F S4x512x512 .f32) (x1 : Vec F S4x512x512 .i32) : FVec F S1x4x512x512 .f32 :=
  k0_pay9 (k0_pay3 x0 x1) (k0_pay4 x1) (k0_pay5 x1) (iota .tc S4x512x512 32 [1] Facts₀.iota_S4x512x512_d1_w32)
    (k0_pay6 x1) k0_pay7 k0_pay8

/-- LATER POINTS: the body adds the product's sum to what the accumulator held. -/
theorem out_B (c : Dev nD) (i : grid0.Coords) (a1 : Memref sig .tc .vmem S4x512x512 .f32) (h1 : a1.IsWhole)
    (a2 : Memref sig .tc .vmem S4x512x512 .i32) (h2 : a2.IsWhole) (a3 : Memref sig .tc .vmem S1x1 .f32) (h3 : a3.IsWhole)
    (hc : ¬cond0_0 i) (x0 : Vec F S4x512x512 .f32) (x1 : Vec F S4x512x512 .i32) (xo : Vec F S1x1 .f32) :
    out0_B_2 c i a1 h1 a2 h2 a3 h3 hc x0 x1 xo = k0_pay1 (prodK x0 x1) xo := by
  unfold out0_B_2
  rw [View.read_writes_eq_canon _ _ _ (cover0_B_2 c i a1 h1 a2 h2 a3 h3 hc x0 x1 xo)]
  unfold kernelRun0_B
  dsimp only
  sl_unfold_words
  rw [View.canon_unit_zero hz2]
  simp only [View.readAt_eq_ld, h1.read_unread, h2.read_unread, h3.read_unread, View.ld_unit_zero (S := S4x512x512) hz3,
    View.ld_unit_zero (S := S1x1) hz2]
  rfl

/-- THE FIRST POINT: the body stores the zero, reads it back, and adds the product's sum to it. -/
theorem out_A (c : Dev nD) (i : grid0.Coords) (a1 : Memref sig .tc .vmem S4x512x512 .f32) (h1 : a1.IsWhole)
    (a2 : Memref sig .tc .vmem S4x512x512 .i32) (h2 : a2.IsWhole) (a3 : Memref sig .tc .vmem S1x1 .f32) (h3 : a3.IsWhole)
    (hc : cond0_0 i) (x0 : Vec F S4x512x512 .f32) (x1 : Vec F S4x512x512 .i32) :
    out0_A_2 c i a1 h1 a2 h2 a3 h3 hc x0 x1 = k0_pay1 (prodK x0 x1) k0_pay2 := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread, View.ld_unit_zero (S := S4x512x512) hz3,
    View.ld_unit_zero (S := S1x1) hz2]
  rfl

end AnyF

/-! ## At the extended reals -/

section AtIdeal

/-- The accumulator's update at its one element: the old value plus the sum of the vector over all its indices. -/
theorem pay1_apply (v79 : FVec Ideal S1x4x512x512 .f32) (v84 : Vec Ideal S1x1 .f32) (j : S1x1.Idx) :
    k0_pay1 v79 v84 j = v84 j + ∑ i : S1x4x512x512.Idx, v79 i := by
  have hsum : multiReduction .add [1, 2, 3] S1 v79 0x00000000#32 Facts₀.reduces_S1x4x512x512_S1 (.inl rfl) rfl
      = fun _ => ∑ i : S1x4x512x512.Idx, v79 i :=
    funext fun k => Ideal.multiReduction_add_total v79 _ _ (fun b => by fin_cases b; rfl) _ _ k
  unfold k0_pay1
  dsimp only
  rw [hsum, shapeCast_self]
  rfl

/-- The product vector at an index of the block is the weighted loss of that pixel. -/
theorem prodK_apply (x0 : Vec Ideal S4x512x512 .f32) (x1 : Vec Ideal S4x512x512 .i32) (j : S1x4x512x512.Idx) :
    prodK (F := Ideal) x0 x1 j = termAt x0 x1 (j 1) (j 2) (j 3) := by
  have hj : j = ix4 (0 : Fin 1) (j 1) (j 2) (j 3) := funext fun a =>
    match a with
    | ⟨0, _⟩ => Fin.ext (by have h0 : (j 0).val < 1 := (j 0).isLt; show (j 0).val = 0; omega)
    | ⟨1, _⟩ => rfl
    | ⟨2, _⟩ => rfl
    | ⟨3, _⟩ => rfl
  exact (congrArg (prodK (F := Ideal) x0 x1) hj).trans (pay9_apply x0 x1 (j 1) (j 2) (j 3))

variable (m : (ℓ : Loc nD τ sig) → Buf (Elt Ideal) ℓ)

/-- The sum of the product over block `t`. -/
def blockSum (c : Dev nD) (t : Fin cfg0.N) : EReal :=
  ∑ j : S1x4x512x512.Idx, prodK (F := Ideal) (iblk m c 0 t) (iblk m c 1 t) j

/-- The block sums of points `0 … n`. -/
def partialSum (c : Dev nD) (n : ℕ) : EReal :=
  ∑ t ∈ Finset.range (n + 1), if h : t < cfg0.N then blockSum m c ⟨t, h⟩ else 0

/-- THE ACCUMULATOR AFTER POINT `n`: zero plus the block sums so far — by induction on the point. -/
theorem outsAt_eq (c : Dev nD) : ∀ (n : ℕ) (h : n < cfg0.N),
    outsAt0 m c n h = fun _ => Ideal.ofBits .f32 0x00000000#32 + partialSum m c n
  | 0, h => by
    refine (outsAt0_A m c ⟨0, h⟩ rfl).trans ((out_A (F := Ideal) c (grid0.coords ⟨0, h⟩) (ms0_0 ⟨0, h⟩) (hs0_0 ⟨0, h⟩)
      (ms0_1 ⟨0, h⟩) (hs0_1 ⟨0, h⟩) (ms0_2 ⟨0, h⟩) (hs0_2 ⟨0, h⟩) ((hcond0_0 ⟨0, h⟩).mpr rfl) (iblk m c 0 ⟨0, h⟩)
      (iblk m c 1 ⟨0, h⟩)).trans ?_)
    funext j
    rw [pay1_apply]
    unfold partialSum
    rw [Finset.sum_range_one, dif_pos h]
    rfl
  | n + 1, h => by
    have hN : cfg0.N = 16 := N_0
    have hB : ¬(⟨n + 1, h⟩ : Fin cfg0.N).val % 16 = 0 := by dsimp only; omega
    refine (outsAt0_B m c ⟨n + 1, h⟩ hB).trans ((out_B (F := Ideal) c (grid0.coords ⟨n + 1, h⟩) (ms0_0 ⟨n + 1, h⟩)
      (hs0_0 ⟨n + 1, h⟩) (ms0_1 ⟨n + 1, h⟩) (hs0_1 ⟨n + 1, h⟩) (ms0_2 ⟨n + 1, h⟩) (hs0_2 ⟨n + 1, h⟩)
      (fun hh => hB ((hcond0_0 ⟨n + 1, h⟩).mp hh)) (iblk m c 0 ⟨n + 1, h⟩) (iblk m c 1 ⟨n + 1, h⟩)
      (outsAt0 m c n (Nat.lt_of_succ_lt h))).trans ?_)
    funext j
    rw [pay1_apply, outsAt_eq c n (Nat.lt_of_succ_lt h)]
    unfold partialSum
    rw [Finset.sum_range_succ _ (n + 1), dif_pos h, add_assoc]
    rfl

end AtIdeal

end Cert.Border.Kernel

end
-- ==== Proof.KernelRun.lean ====
/-
  The idealized kernel's run, read: its result is zero plus the sum of the weighted loss over all pixels, divided by 2^24.

  Block `t` of an input, as the window reads it, is images `4t … 4t+3` of the argument array (`iblk0_apply`,
  `iblk1_apply`), so the block sums are the stack's sums block by block (`blockSum_eq`, Bridge.lean) and the sixteen
  of them the sum over the whole stack (`total_eq`).  The accumulator is written back once, after the last point, and
  its one block is the whole `1×1` result array (`final_acc`).  The two host operations after the region view that
  array as a scalar and divide it by the constant (`tail_eq`).
-/
import proofs.«170355_j23124103922238_1_alg».proof.Proof.KernelCases
import Idealize.ShloMosaic.Lib.StableHlo.Run

noncomputable section

namespace Cert.Border.Kernel

open Cert.KernelIdeal Cert.KernelIdeal.Gen
open Idealize.ShloMosaic Idealize.ShloMosaic.TcCoe Idealize.SL.Sem Idealize.ShloMosaic.Tactic
open Idealize.ShloMosaic.ValueIdx Cert.Border
open Idealize.ShloMosaic.Pipeline (Dat)

variable (m : (ℓ : Loc nD τ sig) → Buf (Elt Ideal) ℓ) (ρ : Dev nD → PrngReg)

/-- Where the first two windows' blocks sit: block `t` starts at image `4t`, row 0, column 0. -/
theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem index1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- Image `b` of the logits' block `t` is image `4t + b` of the logits. -/
theorem iblk0_apply (c : Dev nD) (t : Fin cfg0.N) (b : Fin 4) (h w : Fin 512) (hb : 4 * t.val + b.val < 64) :
    (iblk m c 0 t : Vec Ideal S4x512x512 .f32) (ix3 b h w)
      = m ((c : Thread nD τ).loc main_arg0) (ix3 ⟨4 * t.val + b.val, hb⟩ h w) := by
  have hi := index0 t
  unfold iblk
  rw [View.read_apply]
  show V m c main_arg0 _ = m (c.tc.loc main_arg0) _
  unfold V
  congr 1
  funext a
  apply Fin.ext
  match a with
  | ⟨0, _⟩ => show win0_0.index t 0 * 4 + 1 * b.val = 4 * t.val + b.val; rw [hi.1]; omega
  | ⟨1, _⟩ => show win0_0.index t 1 * 512 + 1 * h.val = h.val; rw [hi.2.1]; omega
  | ⟨2, _⟩ => show win0_0.index t 2 * 512 + 1 * w.val = w.val; rw [hi.2.2]; omega

/-- Image `b` of the labels' block `t` is image `4t + b` of the labels. -/
theorem iblk1_apply (c : Dev nD) (t : Fin cfg0.N) (b : Fin 4) (h w : Fin 512) (hb : 4 * t.val + b.val < 64) :
    (iblk m c 1 t : Vec Ideal S4x512x512 .i32) (ix3 b h w)
      = m ((c : Thread nD τ).loc main_arg1) (ix3 ⟨4 * t.val + b.val, hb⟩ h w) := by
  have hi := index1 t
  unfold iblk
  rw [View.read_apply]
  show V m c main_arg1 _ = m (c.tc.loc main_arg1) _
  unfold V
  congr 1
  funext a
  apply Fin.ext
  match a with
  | ⟨0, _⟩ => show win0_1.index t 0 * 4 + 1 * b.val = 4 * t.val + b.val; rw [hi.1]; omega
  | ⟨1, _⟩ => show win0_1.index t 1 * 512 + 1 * h.val = h.val; rw [hi.2.1]; omega
  | ⟨2, _⟩ => show win0_1.index t 2 * 512 + 1 * w.val = w.val; rw [hi.2.2]; omega

/-- The sum of the product over block `t` is the sum of the stack's weighted loss over that block's pixels. -/
theorem blockSum_eq (c : Dev nD) (t : Fin cfg0.N) :
    blockSum m c t
      = ∑ j : Block.Idx, term (m ((c : Thread nD τ).loc main_arg0)) (m ((c : Thread nD τ).loc main_arg1))
          (ofBlock (Fin.cast N_0 t, j)) := by
  unfold blockSum
  refine Finset.sum_congr rfl fun j _ => ?_
  refine (prodK_apply (iblk m c 0 t) (iblk m c 1 t) j).trans ?_
  have hb : 4 * t.val + (j 1).val < 64 := by
    have h1 : (j 1).val < 4 := (j 1).isLt
    have ht : t.val < 16 := lt_of_lt_of_eq t.isLt N_0
    omega
  exact termAt_congr (N := 4) (M := 64) (iblk m c 0 t) (iblk m c 1 t) (m ((c : Thread nD τ).loc main_arg0))
    (m ((c : Thread nD τ).loc main_arg1)) (j 1) ⟨4 * t.val + (j 1).val, hb⟩
    (fun h w => iblk0_apply m c t (j 1) h w hb) (fun h w => iblk1_apply m c t (j 1) h w hb) (j 2) (j 3)

/-- THE SIXTEEN BLOCK SUMS are the sum of the weighted loss over every pixel of the stack. -/
theorem total_eq (c : Dev nD) :
    partialSum m c 15
      = ∑ i : (Stack 64).Idx, term (m ((c : Thread nD τ).loc main_arg0)) (m ((c : Thread nD τ).loc main_arg1)) i := by
  rw [sum_blocks]
  unfold partialSum
  rw [show (15 : ℕ) + 1 = 16 from rfl, Finset.sum_range]
  refine Finset.sum_congr rfl fun t _ => ?_
  have ht : t.val < cfg0.N := lt_of_lt_of_eq t.isLt N_0.symm
  rw [dif_pos ht]
  exact blockSum_eq m c ⟨t.val, ht⟩

/-- The accumulator after the last point, as contents of the `1×1` result array. -/
abbrev accFinal (c : Dev nD) : Buf (Elt Ideal) ((c : Thread nD τ).loc main_v0) :=
  fun _ => Ideal.ofBits .f32 0x00000000#32 + partialSum m c 15

/-- The one write-back, after the last point, writes it: the block is the whole array. -/
theorem flushed_eq (c : Dev nD) (t : Fin cfg0.N) (hf : (cfg0.win 2).flush t = true) :
    (dats m 0 c).flushed 2 t = ((cfg0.win 2).blk t).view.read (Elt Ideal) (accFinal m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after0_2, outsAt_eq]
  have hz' : (fun a => win0_2.index t0_15 a * main_v0.ty.shape.size a) = fun _ => 0 := funext fun a => by fin_cases a <;> decide
  exact (Memref.read_access_unit_zero (Elt Ideal) main_v0 hz' (fun a => by rw [congrFun hz' a]; simp) (accFinal m c)).symm

/-- So the result array ends holding the accumulator after the last point. -/
theorem final_acc (c : Dev nD) : (dats m 0 c).arrAt 2 cfg0.N = accFinal m c :=
  (dats m 0 c).arrAt_eq_of_cover 2 (accFinal m c) (flushed_eq m c) fun i =>
    ⟨t0_15, (flush0_2 t0_15).mpr rfl, by
      show i ∈ ((View.whole main_v0).slice (win0_2.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 1 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 1 from by decide +kernel]; omega⟩

/-- THE HOST TAIL: the result array viewed as a scalar, divided by the constant. -/
theorem tail_eq (c : Dev nD) :
    Pipeline.afterTail₀ cfgs (dats m) 0 (V0 m) [hostOps1] c main_v2
      = fun _ => Ideal.div (Ideal.ofBits .f32 0x00000000#32 + partialSum m c 15) (Ideal.ofBits .f32 0x4B800000#32) := by
  have hA : Pipeline.withArrays (cfgs 0).spec c (V0 m c) (fun w => (dats m 0 c).arrAt w (cfgs 0).N) (Proc.devRef .tc main_v0)
      = accFinal m c :=
    (Pipeline.withArrays_arr spec0 launch0.win.arr_inj c _ _ 2).trans (final_acc m c)
  unfold Pipeline.afterTail₀
  show StableHlo.after hostOps1 _ (Proc.devRef .tc main_v2) = _
  after_results
  rw [hA]
  rfl

/-- THE RUN, READ: every weakly fair execution ends with the result at zero plus the sixteen block sums, divided by
    `2^24`, and the two arguments unchanged. -/
theorem run : θ_run defs (onTc (τ := τ) (main (F := Ideal))) ⟨m, fun _ => 0, ρ⟩ fun r => ∀ c : Dev nD,
      r.2.mem ((c.tc : Thread nD τ).loc main_v2)
          = (fun _ => Ideal.div (Ideal.ofBits .f32 0x00000000#32 + partialSum m c 15) (Ideal.ofBits .f32 0x4B800000#32))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 rfl (fun w => by fin_cases w <;> decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.Border.Kernel

end
-- ==== Proof.lean ====
/-
  The border-weighted loss: a Pallas kernel against its jnp reference, equal over the extended reals.

  Both programs take logits `x` and integer labels `y` over 64 images of 512×512 pixels.  Per pixel the loss is
  `max x 0 - x·y + log (1 + exp (-|x|))`; the mask is `y > 0`; its erosion and dilation are the minimum and maximum over
  the pixel's 3×3 window, the image framed by `+∞` resp. `-∞`; the weight is `b·2 + (1 - b)` with `b` the dilation
  less the erosion; the result is the sum of loss·weight over all pixels divided by `2^24`.

  The reference computes the windows by `reduce_window`, a fold over the nine framed pixels from the identity
  (Window.lean, RefValue.lean).  The kernel computes them separably — along the columns, then along the rows — each
  pass from the array rotated by one place either way with the wrapped-around edge replaced by the identity
  (Edges.lean, Patched.lean, KernelPixel.lean); associativity of `min` / `max` and the identity laws make the two the
  same nine-fold.  The kernel sums four images per grid point into an accumulator it zeroes at the first point
  (KernelCases.lean); sixteen such block sums are the reference's one sum over the stack, addition on the extended
  reals being commutative and associative (Bridge.lean, KernelRun.lean).  Both then divide by the same constant.
  No step needs the inputs finite, so the precondition is not opened.

  The three frames: the two kernels' are the generated frame certificates; the reference's is its generated run with
  the result dropped.  The idealization rewrote nothing, so `preserves` is `True`.
-/
import proofs.«170355_j23124103922238_1_alg».proof.Defs
import proofs.«170355_j23124103922238_1_alg».proof.Proof.Gen.Kernel
import proofs.«170355_j23124103922238_1_alg».proof.Proof.Gen.Kernel.Skeleton
import proofs.«170355_j23124103922238_1_alg».proof.Proof.Gen.Kernel.Launch
import proofs.«170355_j23124103922238_1_alg».proof.Proof.Gen.Kernel.Points
import proofs.«170355_j23124103922238_1_alg».proof.Proof.Gen.Kernel.Frame
import proofs.«170355_j23124103922238_1_alg».proof.Proof.Gen.KernelIdeal
import proofs.«170355_j23124103922238_1_alg».proof.Proof.Gen.KernelIdeal.Skeleton
import proofs.«170355_j23124103922238_1_alg».proof.Proof.Gen.KernelIdeal.Launch
import proofs.«170355_j23124103922238_1_alg».proof.Proof.Gen.KernelIdeal.Points
import proofs.«170355_j23124103922238_1_alg».proof.Proof.Gen.KernelIdeal.Frame
import proofs.«170355_j23124103922238_1_alg».proof.Proof.Gen.ReferenceIdeal
import proofs.«170355_j23124103922238_1_alg».proof.Proof.Gen.Pre_finite_inputs
import proofs.«170355_j23124103922238_1_alg».proof.Proof.Gen.ReferenceIdeal.Run
import proofs.«170355_j23124103922238_1_alg».proof.Proof.Gen.ReferenceIdeal.Read
import proofs.«170355_j23124103922238_1_alg».proof.Proof.RefValue
import proofs.«170355_j23124103922238_1_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the extended reals the kernel's result is zero plus its sixteen block sums over `2^24`, the reference's zero
    plus the sum over the stack over `2^24`, of arguments that agree: the same number. -/
theorem algebraic : Cert.algebraic_KernelIdeal_ReferenceIdeal := by
  intro m ρ m' ρ' _ hagree
  refine ⟨fun c => fun _ => Ideal.div (Ideal.ofBits .f32 0x00000000#32 + Cert.Border.Kernel.partialSum m c 15)
    (Ideal.ofBits .f32 0x4B800000#32), Cert.Border.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq]
  funext i
  rw [Cert.Border.Ref.result_eq, (hagree c).1, (hagree c).2]
  show _ = Ideal.div (Ideal.ofBits .f32 0x00000000#32 + Cert.Border.Kernel.partialSum m c 15) (Ideal.ofBits .f32 0x4B800000#32)
  rw [Cert.Border.Kernel.total_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
